-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x768 : Shape := ⟨3, ![256, 196, 768]⟩
abbrev S256x196x196x4 : Shape := ⟨4, ![256, 196, 196, 4]⟩
abbrev S4 : Shape := ⟨1, ![4]⟩
abbrev S_ : Shape := ⟨0, ![]⟩

class Facts : Prop where
  bcast_S_S256x196x768 : S_.BroadcastsInDim S256x196x768 (![] : Fin 0 → Fin S256x196x768.rank)
  reducesTo_S256x196x768_S_d0_1_2 : S256x196x768.ReducesTo [0, 1, 2] S_
  h_S_ : 0 < S_.numel
  bcast_S_S256x196x196x4 : S_.BroadcastsInDim S256x196x196x4 (![] : Fin 0 → Fin S256x196x196x4.rank)
  reducesTo_S256x196x196x4_S_d0_1_2_3 : S256x196x196x4.ReducesTo [0, 1, 2, 3] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v15 : IVec S4 1) (main_c_5 : IVec S_ 1) : IVec S_ 1 :=
  let main_v16 : IVec S_ 1 := (fun x v => Host.reduce IntOp.andi x v reducesTo_S4_S_d0 h_S_) main_v15 main_c_5
  let main_v17 : IVec S_ 1 := andi main_v13 main_v16
  main_v17

def fn {F : FTy → Type} [FloatOps F] (main_arg0 : FVec F S256x196x768 .f32) (main_arg1 : FVec F S256x196x196x4 .f32) (main_arg2 : FVec F S4 .f32) : IVec S_ 1 :=
  let main_v0 : FVec F S256x196x768 .f32 := Host.absf main_arg0
  let main_cst : FVec F S_ .f32 := constant S_ .f32 0x7F800000#32
  let main_v1 : FVec F S256x196x768 .f32 := broadcastInDim S256x196x768 ![] bcast_S_S256x196x768 main_cst
  let main_v2 : IVec S256x196x768 1 := cmpf .olt main_v0 main_v1
  let main_c : IVec S_ 1 := constantI S_ 1 1#1
  let main_v3 : IVec S_ 1 := (fun x v => Host.reduce IntOp.andi x v reducesTo_S256x196x768_S_d0_1_2 h_S_) main_v2 main_c
  let main_v4 : FVec F S256x196x196x4 .f32 := Host.absf main_arg1
  let main_cst_0 : FVec F S_ .f32 := constant S_ .f32 0x7F800000#32
  let main_v5 : FVec F S256x196x196x4 .f32 := broadcastInDim S256x196x196x4 ![] bcast_S_S256x196x196x4 main_cst_0
  let main_v6 : IVec S256x196x196x4 1 := cmpf .olt main_v4 main_v5
  let main_c_1 : IVec S_ 1 := constantI S_ 1 1#1
  let main_v7 : IVec S_ 1 := (fun x v => Host.reduce IntOp.andi x v reducesTo_S256x196x196x4_S_d0_1_2_3 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_cst_4 : FVec F S_ .f32 := constant S_ .f32 0x00000000#32
  let main_v14 : FVec F S4 .f32 := broadcastInDim S4 ![] bcast_S_S4 main_cst_4
  let main_v15 : IVec S4 1 := cmpf .une main_arg2 main_v14
  let main_c_5 : IVec S_ 1 := constantI S_ 1 1#1
  fn_part1 (F := F) main_v13 main_v15 main_c_5
-- ==== Kernel.lean ====
abbrev S256x196x768 : Shape := ⟨3, ![256, 196, 768]⟩
abbrev S256x196x196x4 : Shape := ⟨4, ![256, 196, 196, 4]⟩
abbrev S4 : Shape := ⟨1, ![4]⟩
abbrev S256x4x196x196 : Shape := ⟨4, ![256, 4, 196, 196]⟩
abbrev S512x128 : Shape := ⟨2, ![512, 128]⟩
abbrev S4x4x196x196 : Shape := ⟨4, ![4, 4, 196, 196]⟩
abbrev S4x196x768 : Shape := ⟨3, ![4, 196, 768]⟩
abbrev S8x128 : Shape := ⟨2, ![8, 128]⟩
abbrev S4x1x196x196 : Shape := ⟨4, ![4, 1, 196, 196]⟩
abbrev S4x196x196 : Shape := ⟨3, ![4, 196, 196]⟩
abbrev S1 : Shape := ⟨1, ![1]⟩
abbrev S4x196 : Shape := ⟨2, ![4, 196]⟩
abbrev S8 : Shape := ⟨1, ![8]⟩
abbrev S8x1 : Shape := ⟨2, ![8, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S256x196x768, .f32⟩
  | .hbm, ⟨1, _⟩ => ⟨S256x196x196x4, .f32⟩
  | .hbm, ⟨2, _⟩ => ⟨S4, .f32⟩
  | .hbm, ⟨3, _⟩ => ⟨S256x4x196x196, .f32⟩
  | .hbm, ⟨4, _⟩ => ⟨S512x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4x4x196x196, .f32⟩
  | .local _ .vmem, ⟨1, _⟩ => ⟨S4x4x196x196, .f32⟩
  | .local _ .vmem, ⟨2, _⟩ => ⟨S4x196x768, .f32⟩
  | .local _ .vmem, ⟨3, _⟩ => ⟨S4x196x768, .f32⟩
  | .local _ .vmem, ⟨4, _⟩ => ⟨S4, .f32⟩
  | .local _ .vmem, ⟨5, _⟩ => ⟨S8x128, .f32⟩
  | .local _ .vmem, ⟨6, _⟩ => ⟨S8x128, .f32⟩
  | _, _ => ⟨S256x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x4x196x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x196x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x196x196x4_S256x4x196x196_0_3_1_2 : S256x196x196x4.Transposes [0, 3, 1, 2] S256x4x196x196
  inb_S4x4x196x196_S4x4x196x196_0_0_0_0 : ∀ a, (![0, 0, 0, 0] : Fin 4 → Nat) a + S4x4x196x196.size a ≤ S4x4x196x196.size a
  h_S4x4x196x196 : 0 < S4x4x196x196.numel
  shapeCasts_S4x4x196x196_S4x4x196x196 : S4x4x196x196.ShapeCasts S4x4x196x196
  inb_S4x196x768_S4x196x768_0_0_0 : ∀ a, (![0, 0, 0] : Fin 3 → Nat) a + S4x196x768.size a ≤ S4x196x768.size a
  h_S4x196x768 : 0 < S4x196x768.numel
  inb_S4_S4_0 : ∀ a, (![0] : Fin 1 → Nat) a + S4.size a ≤ S4.size a
  h_S4 : 0 < S4.numel
  slices_S4x4x196x196_o0_0_0_0_S4x1x196x196 : S4x4x196x196.Slices ![0, 0, 0, 0] S4x1x196x196
  shapeCasts_S4x1x196x196_S4x196x196 : S4x1x196x196.ShapeCasts S4x196x196
  slices_S4_o0_S1 : S4.Slices ![0] S1
  inpos_S1_p0 : ∀ a, (![0] : Fin 1 → Nat) a < S1.size a
  slices_S4x4x196x196_o0_1_0_0_S4x1x196x196 : S4x4x196x196.Slices ![0, 1, 0, 0] S4x1x196x196
  slices_S4_o1_S1 : S4.Slices ![1] S1
  slices_S4x4x196x196_o0_2_0_0_S4x1x196x196 : S4x4x196x196.Slices ![0, 2, 0, 0] S4x1x196x196
  slices_S4_o2_S1 : S4.Slices ![2] S1
  slices_S4x4x196x196_o0_3_0_0_S4x1x196x196 : S4x4x196x196.Slices ![0, 3, 0, 0] S4x1x196x196
  slices_S4_o3_S1 : S4.Slices ![3] S1
  reduces_S4x196x768_S4x196 : S4x196x768.Reduces [2] S4x196
  reduces_S4x196x196_S4x196 : S4x196x196.Reduces [2] S4x196
  reduces_S4x196_S4 : S4x196.Reduces [1] S4
  bitsLt_bf16_f32 : FTy.bits .bf16 < FTy.bits .f32
  reduces_S4x196x196_S4x196_2 : S4x196x196.Reduces [1] S4x196
  concatenates_S4_S4_S8_d0 : Shape.Concatenates [S4, S4] S8 0
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  reducesTo_S512x128_S_d0_1 : S512x128.ReducesTo [0, 1] S_
  h_S_ : 0 < S_.numel
  dot_S4x196x196_S4x196x768_S4x196x768_2_1_1_2_0_0_wf : DotDims.WF S4x196x196 S4x196x768 S4x196x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4x196x196.size a ≤ S256x4x196x196.size a
  hwx0_0 : ∀ i : grid0.Coords, EltTy.bits .f32 = 32 ∨ (Rect.block (s := S256x4x196x196) S4x4x196x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x196x768.size a ≤ S256x196x768.size a
  hwx0_1 : ∀ i : grid0.Coords, EltTy.bits .f32 = 32 ∨ (Rect.block (s := S256x196x768) S4x196x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S512x128.size a
  hwx0_3 : ∀ i : grid0.Coords, EltTy.bits .f32 = 32 ∨ (Rect.block (s := S512x128) S8x128.size (cc0_transform_3 i) (hinb0_3 i)).WholeWords (EltTy.packing .f32)

variable [Facts₀]

def dot_S4x196x196_S4x196x768_S4x196x768_2_1_1_2_0_0 : DotDims S4x196x196 S4x196x768 S4x196x768 where
  lhsContracting := [2]
  rhsContracting := [1]
  lhsNonContracting := [1]
  rhsNonContracting := [2]
  lhsBatch := [0]
  rhsBatch := [0]
  wf := dot_S4x196x196_S4x196x768_S4x196x768_2_1_1_2_0_0_wf

abbrev win0_0 : Pipeline.Window sig grid0 :=
  Pipeline.Window.ofSpec (Memref.whole main_v0) S4x4x196x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x196x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x196x768 : Shape := ⟨3, ![256, 196, 768]⟩
abbrev S256x196x196x4 : Shape := ⟨4, ![256, 196, 196, 4]⟩
abbrev S4 : Shape := ⟨1, ![4]⟩
abbrev S_ : Shape := ⟨0, ![]⟩
abbrev S1x1x1x4 : Shape := ⟨4, ![1, 1, 1, 4]⟩
abbrev S256x196x196 : Shape := ⟨3, ![256, 196, 196]⟩
abbrev S256x196 : Shape := ⟨2, ![256, 196]⟩
abbrev S256 : Shape := ⟨1, ![256]⟩

abbrev nBuf : Space → Nat
  | .hbm => 43
  | .vmem => 0
  | .smem => 0
  | _ => 0

abbrev bufTy : (tb : Table) → Fin (tcTables nBuf tb) → BufTy
  | .hbm, ⟨0, _⟩ => ⟨S256x196x768, .f32⟩
  | .hbm, ⟨1, _⟩ => ⟨S256x196x196x4, .f32⟩
  | .hbm, ⟨2, _⟩ => ⟨S4, .f32⟩
  | .hbm, ⟨3, _⟩ => ⟨S256x196x196x4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S1x1x1x4, .f32⟩
  | .hbm, ⟨9, _⟩ => ⟨S256x196x196x4, .f32⟩
  | .hbm, ⟨10, _⟩ => ⟨S256x196x196x4, .f32⟩
  | .hbm, ⟨11, _⟩ => ⟨S_, .f32⟩
  | .hbm, ⟨12, _⟩ => ⟨S256x196x196, .f32⟩
  | .hbm, ⟨13, _⟩ => ⟨S256x196x196, .f32⟩
  | .hbm, ⟨14, _⟩ => ⟨S256x196x196, .f32⟩
  | .hbm, ⟨15, _⟩ => ⟨S256x196x768, .f32⟩
  | .hbm, ⟨16, _⟩ => ⟨S_, .f32⟩
  | .hbm, ⟨17, _⟩ => ⟨S256x196, .f32⟩
  | .hbm, ⟨18, _⟩ => ⟨S_, .f32⟩
  | .hbm, ⟨19, _⟩ => ⟨S256x196, .f32⟩
  | .hbm, ⟨20, _⟩ => ⟨S256x196, .f32⟩
  | .hbm, ⟨21, _⟩ => ⟨S_, .f32⟩
  | .hbm, ⟨22, _⟩ => ⟨S256, .f32⟩
  | .hbm, ⟨23, _⟩ => ⟨S256x196x768, .f32⟩
  | .hbm, ⟨24, _⟩ => ⟨S256x196x768, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256x196, .f32⟩
  | .hbm, ⟨29, _⟩ => ⟨S256x196, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S256x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S1x1x1x4_3 : S4.BroadcastsInDim S1x1x1x4 (![3] : Fin 1 → Fin S1x1x1x4.rank)
  bcast_S1x1x1x4_S256x196x196x4_0_1_2_3 : S1x1x1x4.BroadcastsInDim S256x196x196x4 (![0, 1, 2, 3] : Fin 4 → Fin S256x196x196x4.rank)
  reducesTo_S256x196x196x4_S256x196x196_d3 : S256x196x196x4.ReducesTo [3] S256x196x196
  h_S_ : 0 < S_.numel
  reducesTo_S256x196x768_S256x196_d2 : S256x196x768.ReducesTo [2] S256x196
  reducesTo_S256x196x196_S256x196_d2 : S256x196x196.ReducesTo [2] S256x196
  reducesTo_S256x196_S256_d1 : S256x196.ReducesTo [1] S256
  reducesTo_S256x196x768_S256_d1_2 : S256x196x768.ReducesTo [1, 2] S256
  reducesTo_S256x196x196_S256x196_d1 : S256x196x196.ReducesTo [1] S256x196
  bcast_S_S256 : S_.BroadcastsInDim S256 (![] : Fin 0 → Fin S256.rank)
  reducesTo_S256_S_d0 : S256.ReducesTo [0] S_
  dot_S256x196x196_S256x196x768_S256x196x768_2_1_1_2_0_0_wf : DotDims.WF S256x196x196 S256x196x768 S256x196x768 [2] [1] [1] [2] [0] [0]

variable [Facts₀]

def dot_S256x196x196_S256x196x768_S256x196x768_2_1_1_2_0_0 : DotDims S256x196x196 S256x196x768 S256x196x768 where
  lhsContracting := [2]
  rhsContracting := [1]
  lhsNonContracting := [1]
  rhsNonContracting := [2]
  lhsBatch := [0]
  rhsBatch := [0]
  wf := dot_S256x196x196_S256x196x768_S256x196x768_2_1_1_2_0_0_wf

class Facts : Prop extends Facts₀ where

variable [Facts]
-- ==== Proof.KernelReduce.lean ====
/-
  The block operations of one grid step that are not pointwise, each read at an index built from coordinates:
  the four kinds of sum over one axis, the batched product of the weights with the features, and the
  last step that lays the four losses out as an 8 × 128 tile (rows 4 … 7 zero, every row constant along its lanes).
-/
import proofs.«132425_j43052752175786_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.PatchLoss.Kern

open Idealize.ShloMosaic Idealize.ShloMosaic.ValueIdx Cert.KernelIdeal Cert.KernelIdeal.Gen

variable [Cert.KernelIdeal.Facts]

/-! ## Sums over one axis -/

/-- Over the feature axis of a 4 × 196 × 768 block. -/
theorem sum_feat (src : S4x196x768.Idx → EReal) (h : S4x196x768.Reduces [2] S4x196) (r : Fin 4) (t : Fin 196) :
    Ideal.reduceAdd h src (ix2 r t) = ∑ d : Fin 768, src (ix3 r t d) := by
  refine (Ideal.reduceAdd_single h src (ix2 r t)).trans ?_
  show ∑ d : Fin 768, src (h.lift (ix2 r t) d) = _
  refine Finset.sum_congr rfl fun d _ => congrArg src (funext fun a => Fin.ext ?_)
  match a with
  | ⟨0, _⟩ => rfl
  | ⟨1, _⟩ => rfl
  | ⟨2, _⟩ => rfl

/-- Over the last axis of a 4 × 196 × 196 block: a row of the weights. -/
theorem sum_row (src : S4x196x196.Idx → EReal) (h : S4x196x196.Reduces [2] S4x196) (r : Fin 4) (t : Fin 196) :
    Ideal.reduceAdd h src (ix2 r t) = ∑ u : Fin 196, src (ix3 r t u) := by
  refine (Ideal.reduceAdd_single h src (ix2 r t)).trans ?_
  show ∑ u : Fin 196, src (h.lift (ix2 r t) u) = _
  refine Finset.sum_congr rfl fun u _ => congrArg src (funext fun a => Fin.ext ?_)
  match a with
  | ⟨0, _⟩ => rfl
  | ⟨1, _⟩ => rfl
  | ⟨2, _⟩ => rfl

/-- Over the middle axis of a 4 × 196 × 196 block: a column of the weights. -/
theorem sum_col (src : S4x196x196.Idx → EReal) (h : S4x196x196.Reduces [1] S4x196) (r : Fin 4) (u : Fin 196) :
    Ideal.reduceAdd h src (ix2 r u) = ∑ t : Fin 196, src (ix3 r t u) := by
  refine (Ideal.reduceAdd_single h src (ix2 r u)).trans ?_
  show ∑ t : Fin 196, src (h.lift (ix2 r u) t) = _
  refine Finset.sum_congr rfl fun t _ => congrArg src (funext fun a => Fin.ext ?_)
  match a with
  | ⟨0, _⟩ => rfl
  | ⟨1, _⟩ => rfl
  | ⟨2, _⟩ => rfl

/-- Over the patch axis of a 4 × 196 block. -/
theorem sum_patch (src : S4x196.Idx → EReal) (h : S4x196.Reduces [1] S4) (r : Fin 4) :
    Ideal.reduceAdd h src (ix1 r) = ∑ t : Fin 196, src (ix2 r t) := by
  refine (Ideal.reduceAdd_single h src (ix1 r)).trans ?_
  show ∑ t : Fin 196, src (h.lift (ix1 r) t) = _
  refine Finset.sum_congr rfl fun t _ => congrArg src (funext fun a => Fin.ext ?_)
  match a with
  | ⟨0, _⟩ => rfl
  | ⟨1, _⟩ => rfl

/-! ## The batched product -/

theorem lhs_c0 (i : S4x196x768.Idx) (q : dot_S4x196x196_S4x196x768_S4x196x768_2_1_1_2_0_0.contr.Idx) :
    (dot_S4x196x196_S4x196x768_S4x196x768_2_1_1_2_0_0.lhsIdx i q 0).val = (i 0).val := by
  unfold DotDims.lhsIdx
  rw [dif_pos (show (0 : Fin S4x196x196.rank) ∈ dot_S4x196x196_S4x196x768_S4x196x768_2_1_1_2_0_0.lhsBatch by decide)]
  rfl
theorem lhs_c1 (i : S4x196x768.Idx) (q : dot_S4x196x196_S4x196x768_S4x196x768_2_1_1_2_0_0.contr.Idx) :
    (dot_S4x196x196_S4x196x768_S4x196x768_2_1_1_2_0_0.lhsIdx i q 1).val = (i 1).val := by
  unfold DotDims.lhsIdx
  rw [dif_neg (show ¬(1 : Fin S4x196x196.rank) ∈ dot_S4x196x196_S4x196x768_S4x196x768_2_1_1_2_0_0.lhsBatch by decide), dif_pos (show (1 : Fin S4x196x196.rank) ∈ dot_S4x196x196_S4x196x768_S4x196x768_2_1_1_2_0_0.lhsNonContracting by decide)]
  rfl
theorem lhs_c2 (i : S4x196x768.Idx) (q : dot_S4x196x196_S4x196x768_S4x196x768_2_1_1_2_0_0.contr.Idx) :
    (dot_S4x196x196_S4x196x768_S4x196x768_2_1_1_2_0_0.lhsIdx i q 2).val = (q ⟨0, by decide⟩).val :=
  dot_S4x196x196_S4x196x768_S4x196x768_2_1_1_2_0_0.lhsIdx_val_of_single rfl i q
theorem rhs_c0 (i : S4x196x768.Idx) (q : dot_S4x196x196_S4x196x768_S4x196x768_2_1_1_2_0_0.contr.Idx) :
    (dot_S4x196x196_S4x196x768_S4x196x768_2_1_1_2_0_0.rhsIdx i q 0).val = (i 0).val := by
  unfold DotDims.rhsIdx
  rw [dif_pos (show (0 : Fin S4x196x768.rank) ∈ dot_S4x196x196_S4x196x768_S4x196x768_2_1_1_2_0_0.rhsBatch by decide)]
  rfl
theorem rhs_c1 (i : S4x196x768.Idx) (q : dot_S4x196x196_S4x196x768_S4x196x768_2_1_1_2_0_0.contr.Idx) :
    (dot_S4x196x196_S4x196x768_S4x196x768_2_1_1_2_0_0.rhsIdx i q 1).val = (q ⟨0, by decide⟩).val :=
  dot_S4x196x196_S4x196x768_S4x196x768_2_1_1_2_0_0.rhsIdx_val_of_single rfl i q
theorem rhs_c2 (i : S4x196x768.Idx) (q : dot_S4x196x196_S4x196x768_S4x196x768_2_1_1_2_0_0.contr.Idx) :
    (dot_S4x196x196_S4x196x768_S4x196x768_2_1_1_2_0_0.rhsIdx i q 2).val = (i 2).val := by
  unfold DotDims.rhsIdx
  rw [dif_neg (show ¬(2 : Fin S4x196x768.rank) ∈ dot_S4x196x196_S4x196x768_S4x196x768_2_1_1_2_0_0.rhsBatch by decide), dif_pos (show (2 : Fin S4x196x768.rank) ∈ dot_S4x196x196_S4x196x768_S4x196x768_2_1_1_2_0_0.rhsNonContracting by decide)]
  rfl

/-- The product into a zero accumulator at (r, t, d): the sum over u of weight (r, t, u) times feature (r, u, d). -/
theorem contract_apply (w : FVec Ideal S4x196x196 .bf16) (zb : FVec Ideal S4x196x768 .bf16) (r : Fin 4) (t : Fin 196) (d : Fin 768) :
    matmul dot_S4x196x196_S4x196x768_S4x196x768_2_1_1_2_0_0 none w zb (constant (F := Ideal) S4x196x768 .f32 0x00000000#32) (ix3 r t d)
      = ∑ u : Fin 196, w (ix3 r t u) * zb (ix3 r u d) := by
  simp only [matmul]
  rw [Ideal.matmul_constant_zero_apply, ← Equiv.sum_comp (ValueIdx.contrEquiv1 dot_S4x196x196_S4x196x768_S4x196x768_2_1_1_2_0_0 196 rfl rfl).symm]
  refine Finset.sum_congr rfl fun k _ => ?_
  have hk := ValueIdx.contrEquiv1_symm_val dot_S4x196x196_S4x196x768_S4x196x768_2_1_1_2_0_0 196 rfl rfl k
  have el : dot_S4x196x196_S4x196x768_S4x196x768_2_1_1_2_0_0.lhsIdx (ix3 r t d) ((ValueIdx.contrEquiv1 dot_S4x196x196_S4x196x768_S4x196x768_2_1_1_2_0_0 196 rfl rfl).symm k) = ix3 r t k := funext fun a => Fin.ext (by
    match a with
    | ⟨0, _⟩ => exact lhs_c0 _ _
    | ⟨1, _⟩ => exact lhs_c1 _ _
    | ⟨2, _⟩ => exact (lhs_c2 _ _).trans hk)
  have er : dot_S4x196x196_S4x196x768_S4x196x768_2_1_1_2_0_0.rhsIdx (ix3 r t d) ((ValueIdx.contrEquiv1 dot_S4x196x196_S4x196x768_S4x196x768_2_1_1_2_0_0 196 rfl rfl).symm k) = ix3 r k d := funext fun a => Fin.ext (by
    match a with
    | ⟨0, _⟩ => exact rhs_c0 _ _
    | ⟨1, _⟩ => exact (rhs_c1 _ _).trans hk
    | ⟨2, _⟩ => exact rhs_c2 _ _)
  rw [el, er]

/-! ## The output tile -/

/-- Four values padded with four copies of c and spread along 128 lanes: row i holds value i for i < 4, else c. -/
theorem tile_apply (v : FVec Ideal S4 .f32) (c : Ideal .f32) (hc : Shape.Concatenates [S4, S4] S8 0) (h1 : S8.ShapeCasts S8x1)
    (h2 : S8x1.ShapeCasts S8x1) (h3 : S8x1.Broadcasts S8x128) (i : Fin 8) (l : Fin 128) :
    broadcastTo S8x128 (shapeCast S8x1 (shapeCast S8x1 (concatenate S8 0 [⟨S4, v⟩, ⟨S4, broadcast S4 c⟩] hc) h1) h2) h3 (ix2 i l)
      = if h : i.val < 4 then v (ix1 ⟨i.val, h⟩) else c := by
  rw [shapeCast_self]
  refine (broadcastTo_apply _ h3 (ix2 i l) (ix2 i (0 : Fin 1)) fun a => ?_).trans ?_
  · match a with
    | ⟨0, _⟩ => rfl
    | ⟨1, _⟩ => rfl
  refine (shapeCast_apply _ h1 (ix2 i (0 : Fin 1)) (ix1 i) ?_).trans ?_
  · rw [Shape.rowMajor_val_one, Shape.rowMajor_val_two]
    show i.val = i.val * 1 + 0
    omega
  by_cases h : i.val < 4
  · rw [dif_pos h]
    refine concatenate_pair_apply_left 0 v _ hc (ix1 i) rfl (ix1 ⟨i.val, h⟩) fun b => ?_
    match b with
    | ⟨0, _⟩ => rfl
  · rw [dif_neg h]
    refine (concatenate_pair_apply_right 0 v _ hc (ix1 i) rfl rfl (ix1 (⟨i.val - 4, by omega⟩ : Fin 4)) (fun b hb => ?_) ?_).trans rfl
    · match b with
      | ⟨0, _⟩ => exact absurd rfl hb
    · show i.val - 4 + 4 = i.val
      omega

end Cert.PatchLoss.Kern

end
-- ==== Proof.Spec.lean ====
/-
  The quantity both programs compute, written once over plain coordinates.

  For one batch element with patch features z : 196 × 768, pairwise deltas g : 196 × 196 × 4 and bandwidths σ : 4,
  the weight of the pair (t, u) is w t u = exp (−Σ_k g t u k² / (2 σ_k²)), and the element's loss is
      Σ_t |z_t|² · Σ_u w t u  −  2 · Σ_t Σ_d (Σ_u w t u · z u d) · z t d  +  Σ_u |z_u|² · Σ_t w t u.
  The result is the mean of the 256 losses divided by 196².  One program divides each squared delta by 2σ_k²,
  the other multiplies it by the reciprocal 1 / (2σ_k²): for a real σ_k ≠ 0 these agree on every extended real.
  One program sums a 512 × 128 array holding each loss 128 times (and zero rows) and divides by 128 · 256 · 196²:
  that is the same extended real as the mean divided by 196², for finite and for infinite sums alike.
-/
import Idealize.ShloMosaic.PureOps.Ideal
import Idealize.ShloMosaic.PureOps.Ideal.Laws

noncomputable section

namespace Cert.PatchLoss

open Idealize.ShloMosaic

/-! ## The float constants the two programs spell, as the numbers they denote -/

theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_38416 : Ideal.ofBits .f32 0x47161000#32 = ((38416 : ℝ) : EReal) := by
  simp [Ideal.ofBits, Ideal.ieee, -EReal.coe_mul]; norm_num
theorem ofBits_1258815488 : Ideal.ofBits .f32 0x4E961000#32 = ((1258815488 : ℝ) : EReal) := by
  simp [Ideal.ofBits, Ideal.ieee, -EReal.coe_mul]; norm_num

/-! ## One batch element -/

section Batch
variable (σ : Fin 4 → EReal) (g : Fin 196 → Fin 196 → Fin 4 → EReal) (w : Fin 196 → Fin 196 → EReal)
  (z : Fin 196 → Fin 768 → EReal)

/-- 2 σ_k². -/
def den (k : Fin 4) : EReal := Ideal.ofBits .f32 0x40000000#32 * σ k * σ k

/-- The exponent of the pair (t, u), each squared delta DIVIDED by 2 σ_k². -/
def expo (t u : Fin 196) : EReal := ∑ k : Fin 4, Ideal.div (g t u k * g t u k) (den σ k)

/-- The same with each squared delta MULTIPLIED by the reciprocal 1 / (2 σ_k²), summed left to right. -/
def expoRecip (t u : Fin 196) : EReal :=
  g t u 0 * g t u 0 * Ideal.div (Ideal.ofBits .f32 0x3F800000#32) (den σ 0)
    + g t u 1 * g t u 1 * Ideal.div (Ideal.ofBits .f32 0x3F800000#32) (den σ 1)
    + g t u 2 * g t u 2 * Ideal.div (Ideal.ofBits .f32 0x3F800000#32) (den σ 2)
    + g t u 3 * g t u 3 * Ideal.div (Ideal.ofBits .f32 0x3F800000#32) (den σ 3)

/-- The pair's weight. -/
def wgt (t u : Fin 196) : EReal := Ideal.exp (-(expo σ g t u))
/-- The pair's weight, the exponent negated as 0 − x and taken in the reciprocal form. -/
def wgtRecip (t u : Fin 196) : EReal := Ideal.exp (Ideal.ofBits .f32 0x00000000#32 - expoRecip σ g t u)

/-- |z_t|². -/
def sqn (t : Fin 196) : EReal := ∑ d : Fin 768, z t d * z t d
def term1 : EReal := ∑ t : Fin 196, sqn z t * ∑ u : Fin 196, w t u
def wz (t : Fin 196) (d : Fin 768) : EReal := ∑ u : Fin 196, w t u * z u d
def term2 : EReal := ∑ t : Fin 196, ∑ d : Fin 768, wz w z t d * z t d
def term3 : EReal := ∑ u : Fin 196, sqn z u * ∑ t : Fin 196, w t u
/-- The element's loss from its weights. -/
def lossOf : EReal := term1 w z - Ideal.ofBits .f32 0x40000000#32 * term2 w z + term3 w z

/-- For a real nonzero σ_k the product with the reciprocal of 2 σ_k² is the quotient by it, on every extended real. -/
theorem mul_recip_den {k : Fin 4} (hk : ∃ r : ℝ, r ≠ 0 ∧ σ k = (r : EReal)) (x : EReal) :
    x * Ideal.div (Ideal.ofBits .f32 0x3F800000#32) (den σ k) = Ideal.div x (den σ k) := by
  obtain ⟨r, hr, e⟩ := hk
  have hd : den σ k = ((2 * r * r : ℝ) : EReal) := by
    unfold den; rw [e, ofBits_two, EReal.coe_mul, EReal.coe_mul]
  have hne : (2 * r * r : ℝ) ≠ 0 := mul_ne_zero (mul_ne_zero two_ne_zero hr) hr
  rw [hd, Ideal.div_coe hne, Ideal.div_coe hne, ofBits_one, one_mul]

theorem expoRecip_eq (hσ : ∀ k : Fin 4, ∃ r : ℝ, r ≠ 0 ∧ σ k = (r : EReal)) (t u : Fin 196) :
    expoRecip σ g t u = expo σ g t u := by
  unfold expoRecip expo
  rw [Fin.sum_univ_four, mul_recip_den σ (hσ 0), mul_recip_den σ (hσ 1), mul_recip_den σ (hσ 2), mul_recip_den σ (hσ 3)]

theorem wgtRecip_eq (hσ : ∀ k : Fin 4, ∃ r : ℝ, r ≠ 0 ∧ σ k = (r : EReal)) :
    wgtRecip σ g = wgt σ g := by
  funext t u
  unfold wgtRecip wgt
  rw [expoRecip_eq σ g hσ, Ideal.ofBits_zero_f32, zero_sub]

end Batch

/-! ## The 256 elements together -/

/-- The mean of the elements' losses, divided by 196². -/
def meanLoss (R : Fin 256 → EReal) : EReal :=
  Ideal.div (Ideal.div (∑ b : Fin 256, R b) (Ideal.ofBits .f32 0x43800000#32)) (Ideal.ofBits .f32 0x47161000#32)

/-- Row i of the 512 × 128 array: rows 8p … 8p+3 hold the losses of elements 4p … 4p+3, rows 8p+4 … 8p+7 zero. -/
def padRow (R : Fin 256 → EReal) (i : Fin 512) : EReal :=
  if h : i.val % 8 < 4 then R ⟨4 * (i.val / 8) + i.val % 8, by omega⟩ else 0

theorem sum_padRow (R : Fin 256 → EReal) : ∑ i : Fin 512, padRow R i = ∑ b : Fin 256, R b := by
  unfold padRow
  rw [← Finset.sum_filter_add_sum_filter_not Finset.univ (fun i : Fin 512 => i.val % 8 < 4)]
  rw [Finset.sum_congr rfl (g := fun _ => (0 : EReal)) (s₁ := Finset.univ.filter fun i : Fin 512 => ¬ i.val % 8 < 4)
    (fun i hi => dif_neg (Finset.mem_filter.mp hi).2), Finset.sum_const_zero, add_zero]
  refine Finset.sum_bij' (fun i hi => (⟨4 * (i.val / 8) + i.val % 8, by have := (Finset.mem_filter.mp hi).2; omega⟩ : Fin 256))
    (fun b _ => (⟨8 * (b.val / 4) + b.val % 4, by omega⟩ : Fin 512)) (fun _ _ => Finset.mem_univ _)
    (fun b _ => Finset.mem_filter.mpr ⟨Finset.mem_univ _, by show (8 * (b.val / 4) + b.val % 4) % 8 < 4; omega⟩)
    (fun i hi => Fin.ext (by have := (Finset.mem_filter.mp hi).2; show 8 * ((4 * (i.val / 8) + i.val % 8) / 4) + (4 * (i.val / 8) + i.val % 8) % 4 = i.val; omega))
    (fun b _ => Fin.ext (by show 4 * ((8 * (b.val / 4) + b.val % 4) / 8) + (8 * (b.val / 4) + b.val % 4) % 8 = b.val; omega))
    (fun i hi => dif_pos (Finset.mem_filter.mp hi).2)

/-- 128 copies of an extended real, summed. -/
theorem nsmul_cases (S : EReal) : (128 : ℕ) • S = ((128 : ℝ) : EReal) * S := by
  induction S using EReal.rec with
  | bot => rw [EReal.coe_mul_bot_of_pos (by norm_num)]
           have : ∀ n : ℕ, (n + 1) • (⊥ : EReal) = ⊥ := fun n => by rw [succ_nsmul, EReal.add_bot]
           exact this 127
  | top => rw [EReal.coe_mul_top_of_pos (by norm_num)]
           have : ∀ n : ℕ, (n + 1) • (⊤ : EReal) = ⊤ := fun n => by
             induction n with
             | zero => simp
             | succ n ih => rw [succ_nsmul, ih]; rfl
           exact this 127
  | coe r => rw [← EReal.coe_nsmul, ← EReal.coe_mul, nsmul_eq_mul]; norm_num

/-- The whole array's sum divided by 128 · 256 · 196² is the mean divided by 196². -/
theorem scaled_total (R : Fin 256 → EReal) :
    Ideal.div (∑ i : Fin 512, ∑ _l : Fin 128, padRow R i) (Ideal.ofBits .f32 0x4E961000#32) = meanLoss R := by
  unfold meanLoss
  have h1 : ∑ i : Fin 512, ∑ _l : Fin 128, padRow R i = (128 : ℕ) • ∑ b : Fin 256, R b := by
    rw [← sum_padRow R, Finset.smul_sum]
    exact Finset.sum_congr rfl fun i _ => by rw [Finset.sum_const, Finset.card_univ, Fintype.card_fin]
  rw [h1, nsmul_cases, ofBits_1258815488, ofBits_256, ofBits_38416,
    Ideal.div_coe (by norm_num), Ideal.div_coe (by norm_num), Ideal.div_coe (by norm_num)]
  induction (∑ b : Fin 256, R b) using EReal.rec with
  | bot => rw [EReal.coe_mul_bot_of_pos (by norm_num), EReal.bot_mul_coe_of_pos (by norm_num),
      EReal.bot_mul_coe_of_pos (by norm_num), EReal.bot_mul_coe_of_pos (by norm_num)]
  | top => rw [EReal.coe_mul_top_of_pos (by norm_num), EReal.top_mul_coe_of_pos (by norm_num),
      EReal.top_mul_coe_of_pos (by norm_num), EReal.top_mul_coe_of_pos (by norm_num)]
  | coe s => rw [← EReal.coe_mul, ← EReal.coe_mul, ← EReal.coe_mul, ← EReal.coe_mul]; congr 1; ring

end Cert.PatchLoss

end
-- ==== Proof.KernelLoss.lean ====
/-
  The output tile of one grid step, read at an index.

  From the feature block z (element, patch, feature) and the exponent block e (element, t, u) the body forms the
  weights w = exp (0 − e), the squared norms Σ_d z², the row and column sums of w, the product Σ_u w·z, and from
  these the three terms of each element's loss; the four losses are padded with four zeros and spread along
  the lanes.  At row i < 4 and any lane the tile holds element i's loss of its weights and features; at rows
  4 … 7 it holds zero.
-/
import proofs.«132425_j43052752175786_2_alg».proof.Proof.KernelReduce
import proofs.«132425_j43052752175786_2_alg».proof.Proof.Spec

noncomputable section

namespace Cert.PatchLoss.Kern

open Idealize.ShloMosaic Idealize.ShloMosaic.ValueIdx Cert.KernelIdeal Cert.KernelIdeal.Gen

variable [Cert.KernelIdeal.Facts]

theorem exp_apply {s : Shape} {φ : FTy} (a : FVec Ideal s φ) (i : s.Idx) : exp a i = Ideal.exp (a i) := rfl

theorem loss_tile_apply (z : Vec Ideal S4x196x768 .f32) (e : FVec Ideal S4x196x196 .f32) (i : Fin 8) (l : Fin 128) :
    k0_pay1 z e (Scalar.ofBits .f32 0x00000000#32) (ix2 i l)
      = if h : i.val < 4 then
          lossOf (fun t u => Ideal.exp (Ideal.ofBits .f32 0x00000000#32 - e (ix3 (⟨i.val, h⟩ : Fin 4) t u)))
            (fun t d => z (ix3 (⟨i.val, h⟩ : Fin 4) t d))
        else 0 := by
  unfold k0_pay1
  dsimp only
  rw [tile_apply]
  by_cases h : i.val < 4
  · rw [dif_pos h, dif_pos h]
    delta multiReduction
    dsimp only
    simp only [Ideal.reduceAdd_def, addf_apply, subf_apply, mulf_apply, broadcast_apply, sum_patch, sum_feat, sum_row, sum_col,
      contract_apply, truncf_apply, exp_apply]
    unfold lossOf term1 term2 term3 sqn wz
    rfl
  · rw [dif_neg h, dif_neg h]
    exact Ideal.ofBits_zero_f32

end Cert.PatchLoss.Kern

end
-- ==== Proof.KernelExpo.lean ====
/-
  The exponent block of one grid step, read at an index.

  A grid step holds four batch elements: a block x0 of the transposed deltas, indexed (element, k, t, u), and the
  four bandwidths x2.  The body slices out the four k-planes, squares each, multiplies plane k by the reciprocal
  1 / (2 σ_k²) and adds the four products from left to right.  At the index (r, t, u) this is the reciprocal form
  of the pair (t, u)'s exponent for element r.
-/
import proofs.«132425_j43052752175786_2_alg».proof.Proof.Gen.KernelIdeal.Skeleton
import proofs.«132425_j43052752175786_2_alg».proof.Proof.Spec
import Idealize.ShloMosaic.Lib.Pipeline.Value
import Idealize.ShloMosaic.Lib.ValueIdx

noncomputable section

namespace Cert.PatchLoss.Kern

open Idealize.ShloMosaic Idealize.ShloMosaic.ValueIdx Cert.KernelIdeal Cert.KernelIdeal.Gen

variable [Cert.KernelIdeal.Facts]

/-- Plane k of the block, as a 4 × 196 × 196 array, at (r, t, u) is the block at (r, k, t, u). -/
theorem plane_apply (x : S4x4x196x196.Idx → EReal) (k : Nat) (hk : k < 4) (h1 : S4x4x196x196.ShapeCasts S4x4x196x196)
    (h2 : S4x4x196x196.Slices ![0, k, 0, 0] S4x1x196x196) (h3 : S4x1x196x196.ShapeCasts S4x196x196)
    (r : Fin 4) (t u : Fin 196) :
    shapeCast S4x196x196 (extractStridedSlice S4x1x196x196 ![0, k, 0, 0] (shapeCast S4x4x196x196 x h1) h2) h3 (ix3 r t u)
      = x (ix4 r (⟨k, hk⟩ : Fin 4) t u) := by
  rw [shapeCast_self]
  refine (shapeCast_apply _ h3 (ix3 r t u) (ix4 r (0 : Fin 1) t u) ?_).trans ?_
  · rw [Shape.rowMajor_val_four, Shape.rowMajor_val_three]
    show ((r.val * 1 + 0) * 196 + t.val) * 196 + u.val = (r.val * 196 + t.val) * 196 + u.val
    omega
  · refine extractStridedSlice_apply _ x h2 (ix4 r (0 : Fin 1) t u) (ix4 r (⟨k, hk⟩ : Fin 4) t u) fun a => ?_
    match a with
    | ⟨0, _⟩ => show r.val = 0 + r.val; omega
    | ⟨1, _⟩ => show k = k + 0; omega
    | ⟨2, _⟩ => show t.val = 0 + t.val; omega
    | ⟨3, _⟩ => show u.val = 0 + u.val; omega

/-- Entry k of a four-vector, extracted as a one-element slice and then as a scalar. -/
theorem entry_apply (v : S4.Idx → EReal) (k : Nat) (hk : k < 4) (hs : S4.Slices ![k] S1) (hp : ∀ a, (![0] : Fin 1 → Nat) a < S1.size a) :
    extractAt ![0] (extractStridedSlice S1 ![k] v hs) hp = v (ix1 (⟨k, hk⟩ : Fin 4)) := by
  unfold extractAt
  refine extractStridedSlice_apply _ v hs _ (ix1 (⟨k, hk⟩ : Fin 4)) fun a => ?_
  match a with
  | ⟨0, _⟩ => show k = k + 0; omega

/-- The exponent block at (r, t, u): element r's exponent of the pair (t, u), in the reciprocal form. -/
theorem expo_block_apply (x0 : Vec Ideal S4x4x196x196 .f32) (x2 : Vec Ideal S4 .f32) (r : Fin 4) (t u : Fin 196) :
    k0_pay2 x0 x2 (ix3 r t u)
      = expoRecip (fun k => x2 (ix1 k)) (fun t u k => x0 (ix4 r k t u)) t u := by
  unfold k0_pay2 expoRecip den
  dsimp only
  simp only [addf_apply, mulf_apply, broadcast_apply]
  rw [plane_apply x0 0 (by decide), plane_apply x0 1 (by decide), plane_apply x0 2 (by decide), plane_apply x0 3 (by decide),
    entry_apply _ 0 (by decide), entry_apply _ 1 (by decide), entry_apply _ 2 (by decide), entry_apply _ 3 (by decide)]
  rfl

end Cert.PatchLoss.Kern

end
-- ==== Proof.KernelTile.lean ====
/-
  The output tile of grid step p in terms of the whole arrays.

  If the step's delta block holds elements 4p … 4p+3 of the deltas g (as (element, k, t, u)), its feature block holds
  the same elements of the features z, and its bandwidth block is σ, then row i of the tile is row 8p + i of the padded
  losses: the loss of element 4p + i, with the weights in the reciprocal form, for i < 4, and zero for i ≥ 4.
-/
import proofs.«132425_j43052752175786_2_alg».proof.Proof.KernelLoss
import proofs.«132425_j43052752175786_2_alg».proof.Proof.KernelExpo

noncomputable section

namespace Cert.PatchLoss.Kern

open Idealize.ShloMosaic Idealize.ShloMosaic.ValueIdx Cert.KernelIdeal Cert.KernelIdeal.Gen

variable [Cert.KernelIdeal.Facts]

theorem tile_eq (x0 : Vec Ideal S4x4x196x196 .f32) (x1 : Vec Ideal S4x196x768 .f32) (x2 : Vec Ideal S4 .f32) (p : Nat)
    (g : Fin 256 → Fin 196 → Fin 196 → Fin 4 → EReal) (z : Fin 256 → Fin 196 → Fin 768 → EReal) (σ : Fin 4 → EReal)
    (h0 : ∀ (r k : Fin 4) (t u : Fin 196) (hb : 4 * p + r.val < 256), x0 (ix4 r k t u) = g ⟨4 * p + r.val, hb⟩ t u k)
    (h1 : ∀ (r : Fin 4) (t : Fin 196) (d : Fin 768) (hb : 4 * p + r.val < 256), x1 (ix3 r t d) = z ⟨4 * p + r.val, hb⟩ t d)
    (h2 : ∀ k : Fin 4, x2 (ix1 k) = σ k) (i : Fin 8) (l : Fin 128) (hi : 8 * p + i.val < 512) :
    k0_pay1 x1 (k0_pay2 x0 x2) (Scalar.ofBits .f32 0x00000000#32) (ix2 i l)
      = padRow (fun b => lossOf (wgtRecip σ (g b)) (z b)) ⟨8 * p + i.val, hi⟩ := by
  rw [loss_tile_apply]
  unfold padRow
  by_cases h : i.val < 4
  · have hm : (⟨8 * p + i.val, hi⟩ : Fin 512).val % 8 < 4 := by show (8 * p + i.val) % 8 < 4; omega
    have hb : 4 * p + i.val < 256 := by omega
    rw [dif_pos h, dif_pos hm]
    have hs : (fun k => x2 (ix1 k)) = σ := funext h2
    have hg : (fun (t u : Fin 196) (k : Fin 4) => x0 (ix4 (⟨i.val, h⟩ : Fin 4) k t u)) = g ⟨4 * p + i.val, hb⟩ :=
      funext fun t => funext fun u => funext fun k => h0 ⟨i.val, h⟩ k t u hb
    have hz : (fun (t : Fin 196) (d : Fin 768) => x1 (ix3 (⟨i.val, h⟩ : Fin 4) t d)) = z ⟨4 * p + i.val, hb⟩ :=
      funext fun t => funext fun d => h1 ⟨i.val, h⟩ t d hb
    have hw : (fun t u => Ideal.exp (Ideal.ofBits .f32 0x00000000#32 - k0_pay2 x0 x2 (ix3 (⟨i.val, h⟩ : Fin 4) t u)))
        = wgtRecip σ (g ⟨4 * p + i.val, hb⟩) := by
      funext t u
      rw [expo_block_apply, hs, hg]
      rfl
    rw [hw, hz]
    exact congrArg (fun b => lossOf (wgtRecip σ (g b)) (z b))
      (Fin.ext (by show 4 * p + i.val = 4 * ((8 * p + i.val) / 8) + (8 * p + i.val) % 8; omega))
  · have hm : ¬ (⟨8 * p + i.val, hi⟩ : Fin 512).val % 8 < 4 := by show ¬ (8 * p + i.val) % 8 < 4; omega
    rw [dif_neg h, dif_neg hm]

end Cert.PatchLoss.Kern

end
-- ==== Proof.KernelBlocks.lean ====
/-
  What each window's block at grid point p is, as entries of the argument arrays.

  The grid has 64 points.  At point p the first window holds batch elements 4p … 4p+3 of the pairwise deltas with the
  coordinate axis moved to second place, the second window the same elements' patch features, the third the four
  bandwidths, and the output window is rows 8p … 8p+7 of the 512 × 128 result.  A block's coordinate on an axis is
  always (block index) × (block size) + 1 × (coordinate inside the block).
-/
import proofs.«132425_j43052752175786_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.PatchLoss.Blk

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-! ## The index maps over the grid -/

/-- The block indices at point t: the batch block is t on the leading axis of windows 0, 1 and 3, everything else 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-! ## The bandwidths' block -/

theorem iblk2_apply (c : Dev nD) (p : Fin cfg0.N) (k : Fin 4) :
    (iblk m c 2 p : Vec Ideal S4 .f32) (ix1 k) = (m ((c : Thread nD τ).loc main_arg2) : S4.Idx → EReal) (ix1 k) := by
  obtain ⟨-, -, -, -, -, -, -, e, -, -⟩ := idx_facts p
  show V m c main_arg2 (((cfg0.win 2).blk p).view.emb (ix1 k)) = _
  rw [V_main_arg2]
  refine congrArg _ (funext fun a => Fin.ext ?_)
  match a with
  | ⟨0, _⟩ => show win0_2.index p (0 : Fin 1) * 4 + 1 * k.val = k.val; omega

/-! ## The output window's block -/

theorem blk3_read (p : Fin cfg0.N) (G : S512x128.Idx → EReal) (i : Fin 8) (l : Fin 128) (hb : 8 * p.val + i.val < 512) :
    (((cfg0.win 3).blk p).view.read (Elt Ideal) G : Vec Ideal S8x128 .f32) (ix2 i l)
      = G (ix2 (⟨8 * p.val + i.val, hb⟩ : Fin 512) l) := by
  obtain ⟨-, -, -, -, -, -, -, -, e0, e1⟩ := idx_facts p
  show G (((cfg0.win 3).blk p).view.emb (ix2 i l)) = _
  refine congrArg G (funext fun a => Fin.ext ?_)
  match a with
  | ⟨0, _⟩ => show win0_3.index p (0 : Fin 2) * 8 + 1 * i.val = 8 * p.val + i.val; omega
  | ⟨1, _⟩ => show win0_3.index p (1 : Fin 2) * 128 + 1 * l.val = l.val; omega

/-! ## The features' block -/

theorem iblk1_apply (c : Dev nD) (p : Fin cfg0.N) (r : Fin 4) (t : Fin 196) (d : Fin 768) (hb : 4 * p.val + r.val < 256) :
    (iblk m c 1 p : Vec Ideal S4x196x768 .f32) (ix3 r t d)
      = (m ((c : Thread nD τ).loc main_arg0) : S256x196x768.Idx → EReal) (ix3 (⟨4 * p.val + r.val, hb⟩ : Fin 256) t d) := by
  obtain ⟨-, -, -, -, e0, e1, e2, -, -, -⟩ := idx_facts p
  show V m c main_arg0 (((cfg0.win 1).blk p).view.emb (ix3 r t d)) = _
  rw [V_main_arg0]
  refine congrArg _ (funext fun a => Fin.ext ?_)
  match a with
  | ⟨0, _⟩ => show win0_1.index p (0 : Fin 3) * 4 + 1 * r.val = 4 * p.val + r.val; omega
  | ⟨1, _⟩ => show win0_1.index p (1 : Fin 3) * 196 + 1 * t.val = t.val; omega
  | ⟨2, _⟩ => show win0_1.index p (2 : Fin 3) * 768 + 1 * d.val = d.val; omega

/-! ## The deltas' block -/

/-- The array the first window stages is the deltas with the coordinate axis moved to second place. -/
theorem V_main_v0 (c : Dev nD) :
    (V m c main_v0 : S256x4x196x196.Idx → EReal)
      = transpose S256x4x196x196 [0, 3, 1, 2] (m ((c : Thread nD τ).loc main_arg1) : S256x196x196x4.Idx → EReal)
          transposes_S256x196x196x4_S256x4x196x196_0_3_1_2 := by
  show StableHlo.after hostOps0 (fun b => m (c, b)) (Proc.devRef .tc main_v0) = _
  after_results

/-- Its entry at (b, k, t, u) is the deltas' entry at (b, t, u, k). -/
theorem main_v0_apply (c : Dev nD) (b : Fin 256) (k : Fin 4) (t u : Fin 196) :
    (V m c main_v0 : S256x4x196x196.Idx → EReal) (ix4 b k t u)
      = (m ((c : Thread nD τ).loc main_arg1) : S256x196x196x4.Idx → EReal) (ix4 b t u k) := by
  rw [V_main_v0]
  exact transpose_apply [0, 3, 1, 2] _ transposes_S256x196x196x4_S256x4x196x196_0_3_1_2 (ix4 b k t u) (ix4 b t u k)
    (fun a => by match a with | ⟨0, _⟩ => rfl | ⟨1, _⟩ => rfl | ⟨2, _⟩ => rfl | ⟨3, _⟩ => rfl)

theorem iblk0_apply (c : Dev nD) (p : Fin cfg0.N) (r k : Fin 4) (t u : Fin 196) (hb : 4 * p.val + r.val < 256) :
    (iblk m c 0 p : Vec Ideal S4x4x196x196 .f32) (ix4 r k t u)
      = (m ((c : Thread nD τ).loc main_arg1) : S256x196x196x4.Idx → EReal) (ix4 (⟨4 * p.val + r.val, hb⟩ : Fin 256) t u k) := by
  obtain ⟨e0, e1, e2, e3, -, -, -, -, -, -⟩ := idx_facts p
  show V m c main_v0 (((cfg0.win 0).blk p).view.emb (ix4 r k t u)) = _
  have e : ((cfg0.win 0).blk p).view.emb (ix4 r k t u) = ix4 (⟨4 * p.val + r.val, hb⟩ : Fin 256) k t u :=
    funext fun a => Fin.ext (by
      match a with
      | ⟨0, _⟩ => show win0_0.index p (0 : Fin 4) * 4 + 1 * r.val = 4 * p.val + r.val; omega
      | ⟨1, _⟩ => show win0_0.index p (1 : Fin 4) * 4 + 1 * k.val = k.val; omega
      | ⟨2, _⟩ => show win0_0.index p (2 : Fin 4) * 196 + 1 * t.val = t.val; omega
      | ⟨3, _⟩ => show win0_0.index p (3 : Fin 4) * 196 + 1 * u.val = u.val; omega)
  rw [e]
  exact main_v0_apply m c _ k t u

/-! ## The output blocks cover the result -/

/-- An index of the result is in point t's block iff each coordinate is in the block's range on its axis. -/
theorem mem_blk3 (t : Fin cfg0.N) (i : S512x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- Row r of the result lies in the block of point r / 8, and every point writes its block back. -/
theorem cover3 (i : S512x128.Idx) : ∃ p : Fin cfg0.N, (cfg0.win 3).flush p = true ∧ i ∈ ((cfg0.win 3).blk p).view.set := by
  have hi0 : (i 0).val < 512 := (i 0).isLt
  have hi1 : (i 1).val < 128 := (i 1).isLt
  have hN : cfg0.N = 64 := N_0
  obtain ⟨p, hp⟩ : ∃ p : Fin cfg0.N, p.val = (i 0).val / 8 := ⟨⟨(i 0).val / 8, by rw [hN]; omega⟩, rfl⟩
  obtain ⟨-, -, -, -, -, -, -, -, e0, e1⟩ := idx_facts p
  refine ⟨p, flush0_3 p, ?_⟩
  rw [mem_blk3]
  intro a
  match a with
  | ⟨0, _⟩ => show win0_3.index p (0 : Fin 2) * 8 ≤ (i 0).val ∧ (i 0).val < win0_3.index p (0 : Fin 2) * 8 + 8; omega
  | ⟨1, _⟩ => show win0_3.index p (1 : Fin 2) * 128 ≤ (i 1).val ∧ (i 1).val < win0_3.index p (1 : Fin 2) * 128 + 128; omega

end Cert.PatchLoss.Blk

end
-- ==== Proof.KernelArray.lean ====
/-
  The 512 × 128 array the grid steps leave behind.

  Step p writes rows 8p … 8p+7.  Its three input blocks are elements 4p … 4p+3 of the (transposed) deltas and of the
  features, and the bandwidths; so by the tile lemma it writes rows 8p … 8p+7 of the padded losses.  The 64 steps cover
  all 512 rows, hence the array ends holding the padded losses, every row constant along its 128 lanes.
-/
import proofs.«132425_j43052752175786_2_alg».proof.Proof.KernelTile
import proofs.«132425_j43052752175786_2_alg».proof.Proof.KernelBlocks

noncomputable section

namespace Cert.PatchLoss.Arr

open Idealize.ShloMosaic Idealize.ShloMosaic.TcCoe Idealize.SL.Sem Idealize.ShloMosaic.ValueIdx
open Cert.KernelIdeal Cert.KernelIdeal.Gen Cert.PatchLoss.Kern Cert.PatchLoss.Blk

variable (m : (ℓ : Loc nD τ sig) → Buf (Elt Ideal) ℓ)

/-- The arguments by coordinates: deltas (element, t, u, k), features (element, t, d), bandwidths k. -/
def gOf (c : Dev nD) : Fin 256 → Fin 196 → Fin 196 → Fin 4 → EReal :=
  fun b t u k => (m ((c : Thread nD τ).loc main_arg1) : S256x196x196x4.Idx → EReal) (ix4 b t u k)
def zOf (c : Dev nD) : Fin 256 → Fin 196 → Fin 768 → EReal :=
  fun b t d => (m ((c : Thread nD τ).loc main_arg0) : S256x196x768.Idx → EReal) (ix3 b t d)
def sOf (c : Dev nD) : Fin 4 → EReal :=
  fun k => (m ((c : Thread nD τ).loc main_arg2) : S4.Idx → EReal) (ix1 k)

/-- The 256 losses, the weights in the reciprocal form. -/
def lossesRecip (c : Dev nD) : Fin 256 → EReal := fun b => lossOf (wgtRecip (sOf m c) (gOf m c b)) (zOf m c b)

/-- The padded losses as a 512 × 128 array. -/
def padded (c : Dev nD) : S512x128.Idx → EReal := fun i => padRow (lossesRecip m c) (i 0)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What step p writes back is block p of the padded losses. -/
theorem flushed_eq (c : Dev nD) (p : Fin cfg0.N) :
    (dats m 0 c).flushed 3 p = ((cfg0.win 3).blk p).view.read (Elt Ideal) (padded m c) := by
  show (cfg0.win 3).cut (grid0.coords p) ((dats m 0 c).after 3 p) = _
  rw [after0_3]
  unfold out0_3
  rw [View.canon_unit_zero hz2]
  simp only [View.ld_unit_zero (S := S4x4x196x196) hz4, View.ld_unit_zero (S := S4x196x768) hz3, View.ld_unit_zero (S := S4) hz1]
  have hN : p.val < 64 := lt_of_lt_of_eq p.isLt (show cfg0.N = 64 from N_0)
  funext y
  obtain ⟨i, l, rfl⟩ : ∃ (i : Fin 8) (l : Fin 128), y = ix2 i l := ⟨y 0, y 1, eq_ix2 y⟩
  have hi : 8 * p.val + i.val < 512 := by have := i.isLt; omega
  show k0_pay1 _ _ _ (ix2 i l) = _
  refine (tile_eq _ _ _ p.val (gOf m c) (zOf m c) (sOf m c) (fun r k t u hb => iblk0_apply m c p r k t u hb)
    (fun r t d hb => iblk1_apply m c p r t d hb) (fun k => iblk2_apply m c p k) i l hi).trans ?_
  exact (blk3_read p (padded m c) i l hi).symm

/-- The array after the last step. -/
theorem final (c : Dev nD) : (dats m 0 c).arrAt 3 cfg0.N = padded m c :=
  (dats m 0 c).arrAt_eq_of_cover 3 (padded m c) (fun p _ => flushed_eq m c p) cover3

end Cert.PatchLoss.Arr

end
-- ==== Proof.HostTail.lean ====
/-
  The host lines after the kernel: the 512 × 128 array whose row i holds the padded loss of row i in every lane is
  summed over both axes from zero and divided by 128 · 256 · 196²; that is the mean of the 256 losses divided by 196².
-/
import proofs.«132425_j43052752175786_2_alg».proof.KernelIdeal
import proofs.«132425_j43052752175786_2_alg».proof.Proof.Spec
import Idealize.ShloMosaic.Lib.ValueIdx
import Idealize.ShloMosaic.PureOps.Ideal.Laws

noncomputable section

namespace Cert.PatchLoss.Tail

open Idealize.ShloMosaic Idealize.ShloMosaic.ValueIdx

/-- The sum over both axes reaches every index of the array, so it is the double sum over rows and lanes; the
    specification's count of 128 copies per row then gives the mean. -/
theorem tail_eq [Cert.KernelIdeal.Facts] (R : Fin 256 → EReal) :
    Host.divf (F := Ideal) (Host.reduceAdd (F := Ideal) (fun i : Cert.KernelIdeal.S512x128.Idx => Cert.PatchLoss.padRow R (i 0)) (constant (F := Ideal) Cert.KernelIdeal.S_ .f32 0x00000000#32) Cert.KernelIdeal.Facts₀.reducesTo_S512x128_S_d0_1 Cert.KernelIdeal.Facts₀.h_S_) (constant (F := Ideal) Cert.KernelIdeal.S_ .f32 0x4E961000#32)
      = fun _ => Cert.PatchLoss.meanLoss R := by
  funext j
  simp only [Host.divf, Host.reduceAdd, Ideal.hostDivf_def, Ideal.hostReduceAdd_def]
  rw [Ideal.hostReduceAdd_total _ (fun b => b.elim0), constant_apply, constant_apply, Ideal.ofBits_zero_f32, zero_add,
    sum_idx2]
  exact scaled_total R

end Cert.PatchLoss.Tail

end
-- ==== Proof.KernelRun.lean ====
/-
  The kernel program's run, read: the result is the mean of the 256 losses divided by 196².

  After the grid the host sums the 512 × 128 array and divides by 128 · 256 · 196²; on the padded losses that is the mean
  divided by 196².  Where every bandwidth is a nonzero real, the reciprocal form of the weights is the quotient form.
-/
import proofs.«132425_j43052752175786_2_alg».proof.Proof.KernelArray
import proofs.«132425_j43052752175786_2_alg».proof.Proof.HostTail
import Idealize.ShloMosaic.Lib.StableHlo.Run

noncomputable section

namespace Cert.PatchLoss.Arr

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The 256 losses, the weights in the quotient form. -/
def losses (c : Dev nD) : Fin 256 → EReal := fun b => lossOf (wgt (sOf m c) (gOf m c b)) (zOf m c b)

/-- The host lines after the grid leave the mean of the losses (reciprocal form) divided by 196² in the result. -/
theorem tail_val (c : Dev nD) :
    Pipeline.afterTail₀ cfgs (dats m) 0 (V0 m) [hostOps1] c main_v3 = fun _ => meanLoss (lossesRecip m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = padded m c := (Pipeline.withArrays_arr spec0 launch0.win.arr_inj c _ _ 3).trans (final m c)
  rw [e]
  exact Cert.PatchLoss.Tail.tail_eq (lossesRecip m c)

/-- Where every bandwidth is a nonzero real the two forms of the weights, hence of the losses, agree. -/
theorem lossesRecip_eq (c : Dev nD) (hσ : ∀ k : Fin 4, ∃ r : ℝ, r ≠ 0 ∧ sOf m c k = (r : EReal)) :
    lossesRecip m c = losses m c := by
  funext b
  unfold lossesRecip losses
  rw [wgtRecip_eq _ _ hσ]

/-- The run: every execution ends with the result at the mean of the losses divided by 196², the arguments unchanged. -/
theorem run (hσ : ∀ (c : Dev nD) (k : Fin 4), ∃ r : ℝ, r ≠ 0 ∧ sOf m c k = (r : EReal)) :
    θ_run defs (onTc (τ := τ) (main (F := Ideal))) ⟨m, fun _ => 0, ρ⟩ fun r => ∀ c : Dev nD,
      r.2.mem ((c.tc : Thread nD τ).loc main_v3) = (fun _ => meanLoss (losses m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans
        ((tail_val m c).trans (by rw [lossesRecip_eq m c (hσ c)])),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.PatchLoss.Arr

end
-- ==== Proof.RefValue.lean ====
/-
  The reference program's value: the mean, divided by 196², of the 256 per-element losses of the specification.

  The reference is read one host operation at a time.  Every stage is stated at an index built from literal
  coordinates, so that each stage's reading is a statement about plain functions of (b, t, u, k, d).
-/
import proofs.«132425_j43052752175786_2_alg».proof.Proof.Gen.ReferenceIdeal.Read
import proofs.«132425_j43052752175786_2_alg».proof.Proof.Spec
import Idealize.ShloMosaic.Lib.ValueIdx

noncomputable section

namespace Cert.PatchLoss.Ref

open Idealize.ShloMosaic Idealize.ShloMosaic.ValueIdx Cert.ReferenceIdeal Cert.ReferenceIdeal.Gen Cert.ReferenceIdeal.Read

/-- The three arguments, by their array types. -/
abbrev X0 := (⟨S256x196x768, .f32⟩ : BufTy).Contents (Elt Ideal)
abbrev X1 := (⟨S256x196x196x4, .f32⟩ : BufTy).Contents (Elt Ideal)
abbrev X2 := (⟨S4, .f32⟩ : BufTy).Contents (Elt Ideal)

/-- The bandwidths as a function of the coordinate. -/
abbrev sig (x2 : X2) : Fin 4 → EReal := fun k => x2 (ix1 k)
/-- Element b's pairwise deltas. -/
abbrev dlt (x1 : X1) (b : Fin 256) : Fin 196 → Fin 196 → Fin 4 → EReal := fun t u k => x1 (ix4 b t u k)
/-- Element b's patch features. -/
abbrev feat (x0 : X0) (b : Fin 256) : Fin 196 → Fin 768 → EReal := fun t d => x0 (ix3 b t d)

/-! ## The weights -/

/-- 2 σ_k², the broadcast constant times the bandwidth twice. -/
theorem v3_eq (x2 : X2) (k : Fin 4) : val_main_v3 (F := Ideal) x2 (ix1 k) = den (sig x2) k := by
  rw [val_main_v3_apply, val_main_v2_apply, val_main_v1_apply, val_main_cst_apply]
  rfl

/-- The denominator broadcast over (b, t, u) reads 2 σ_k² at coordinate k. -/
theorem v5_eq (x2 : X2) (b : Fin 256) (t u : Fin 196) (k : Fin 4) :
    val_main_v5 (F := Ideal) x2 (ix4 b t u k) = den (sig x2) k := by
  rw [val_main_v5_apply, val_main_v4_apply, ← v3_eq]
  exact congrArg _ (funext fun a => Fin.ext (by match a with | ⟨0, _⟩ => rfl))

/-- One squared delta divided by 2 σ_k². -/
theorem v6_eq (x1 : X1) (x2 : X2) (b : Fin 256) (t u : Fin 196) (k : Fin 4) :
    val_main_v6 (F := Ideal) x1 x2 (ix4 b t u k)
      = Ideal.div (dlt x1 b t u k * dlt x1 b t u k) (den (sig x2) k) := by
  rw [val_main_v6_apply, val_main_v0_apply, v5_eq]
  rfl

/-- The exponent of the pair (t, u). -/
theorem v7_eq (x1 : X1) (x2 : X2) (b : Fin 256) (t u : Fin 196) :
    val_main_v7 (F := Ideal) x1 x2 (ix3 b t u) = expo (sig x2) (dlt x1 b) t u := by
  rw [val_main_v7_apply, val_main_cst_0_apply, Ideal.ofBits_def, Ideal.ofBits_zero_f32, zero_add]
  unfold expo
  refine Finset.sum_congr rfl fun k _ => ?_
  rw [← v6_eq]
  exact congrArg _ (funext fun a => Fin.ext (by match a with | ⟨0, _⟩ => rfl | ⟨1, _⟩ => rfl | ⟨2, _⟩ => rfl | ⟨3, _⟩ => rfl))

/-- The weight of the pair (t, u). -/
theorem v9_eq (x1 : X1) (x2 : X2) (b : Fin 256) (t u : Fin 196) :
    val_main_v9 (F := Ideal) x1 x2 (ix3 b t u) = wgt (sig x2) (dlt x1 b) t u := by
  rw [val_main_v9_apply, val_main_v8_apply, v7_eq]
  rfl

/-! ## Squared norms, row sums and the first term -/

/-- |z_t|². -/
theorem v11_eq (x0 : X0) (b : Fin 256) (t : Fin 196) :
    val_main_v11 (F := Ideal) x0 (ix2 b t) = sqn (feat x0 b) t := by
  rw [val_main_v11_apply, val_main_cst_1_apply, Ideal.ofBits_def, Ideal.ofBits_zero_f32, zero_add]
  unfold sqn
  refine Finset.sum_congr rfl fun d _ => ?_
  rw [val_main_v10_apply]
  have e : idx_main_v11 (ix2 b t) d = ix3 b t d :=
    funext fun a => Fin.ext (by match a with | ⟨0, _⟩ => rfl | ⟨1, _⟩ => rfl | ⟨2, _⟩ => rfl)
  rw [e]
  rfl

/-- Σ_u w t u. -/
theorem v12_eq (x1 : X1) (x2 : X2) (b : Fin 256) (t : Fin 196) :
    val_main_v12 (F := Ideal) x1 x2 (ix2 b t) = ∑ u : Fin 196, wgt (sig x2) (dlt x1 b) t u := by
  rw [val_main_v12_apply, val_main_cst_2_apply, Ideal.ofBits_def, Ideal.ofBits_zero_f32, zero_add]
  refine Finset.sum_congr rfl fun u _ => ?_
  rw [← v9_eq]
  exact congrArg _ (funext fun a => Fin.ext (by match a with | ⟨0, _⟩ => rfl | ⟨1, _⟩ => rfl | ⟨2, _⟩ => rfl))

/-- Σ_t w t u. -/
theorem v18_eq (x1 : X1) (x2 : X2) (b : Fin 256) (u : Fin 196) :
    val_main_v18 (F := Ideal) x1 x2 (ix2 b u) = ∑ t : Fin 196, wgt (sig x2) (dlt x1 b) t u := by
  rw [val_main_v18_apply, val_main_cst_5_apply, Ideal.ofBits_def, Ideal.ofBits_zero_f32, zero_add]
  refine Finset.sum_congr rfl fun t _ => ?_
  rw [← v9_eq]
  exact congrArg _ (funext fun a => Fin.ext (by match a with | ⟨0, _⟩ => rfl | ⟨1, _⟩ => rfl | ⟨2, _⟩ => rfl))

/-- The first term: Σ_t |z_t|² · Σ_u w t u. -/
theorem v14_eq (x0 : X0) (x1 : X1) (x2 : X2) (b : Fin 256) :
    val_main_v14 (F := Ideal) x0 x1 x2 (ix1 b) = term1 (wgt (sig x2) (dlt x1 b)) (feat x0 b) := by
  rw [val_main_v14_apply, val_main_cst_3_apply, Ideal.ofBits_def, Ideal.ofBits_zero_f32, zero_add]
  unfold term1
  refine Finset.sum_congr rfl fun t _ => ?_
  have e : idx_main_v14 (ix1 b) t = ix2 b t :=
    funext fun a => Fin.ext (by match a with | ⟨0, _⟩ => rfl | ⟨1, _⟩ => rfl)
  rw [e, val_main_v13_apply, v11_eq, v12_eq]
  rfl

/-- The third term: Σ_u |z_u|² · Σ_t w t u. -/
theorem v20_eq (x0 : X0) (x1 : X1) (x2 : X2) (b : Fin 256) :
    val_main_v20 (F := Ideal) x0 x1 x2 (ix1 b) = term3 (wgt (sig x2) (dlt x1 b)) (feat x0 b) := by
  rw [val_main_v20_apply, val_main_cst_6_apply, Ideal.ofBits_def, Ideal.ofBits_zero_f32, zero_add]
  unfold term3
  refine Finset.sum_congr rfl fun u _ => ?_
  have e : idx_main_v20 (ix1 b) u = ix2 b u :=
    funext fun a => Fin.ext (by match a with | ⟨0, _⟩ => rfl | ⟨1, _⟩ => rfl)
  rw [e, val_main_v19_apply, v11_eq, v18_eq]
  rfl

/-! ## The weighted features and the second term -/

/-- Σ_u w t u · z u d, the contraction over u. -/
theorem v15_eq (x0 : X0) (x1 : X1) (x2 : X2) (b : Fin 256) (t : Fin 196) (d : Fin 768) :
    val_main_v15 (F := Ideal) x0 x1 x2 (ix3 b t d) = wz (wgt (sig x2) (dlt x1 b)) (feat x0 b) t d := by
  rw [val_main_v15_apply]
  unfold wz
  refine Finset.sum_congr rfl fun u _ => ?_
  have el : lidx_main_v15 (ix3 b t d) u = ix3 b t u :=
    funext fun a => Fin.ext (by match a with | ⟨0, _⟩ => rfl | ⟨1, _⟩ => rfl | ⟨2, _⟩ => rfl)
  have er : ridx_main_v15 (ix3 b t d) u = ix3 b u d :=
    funext fun a => Fin.ext (by match a with | ⟨0, _⟩ => rfl | ⟨1, _⟩ => rfl | ⟨2, _⟩ => rfl)
  rw [el, er, v9_eq]

/-- One summand of the second term. -/
theorem v16_eq (x0 : X0) (x1 : X1) (x2 : X2) (b : Fin 256) (t : Fin 196) (d : Fin 768) :
    val_main_v16 (F := Ideal) x0 x1 x2 (ix3 b t d)
      = wz (wgt (sig x2) (dlt x1 b)) (feat x0 b) t d * feat x0 b t d := by
  rw [val_main_v16_apply, v15_eq]
  rfl

/-- Dropping the coordinates t and d of (b, t, d) leaves b. -/
theorem drop12_ix3 (b : Fin 256) (t : Fin 196) (d : Fin 768) :
    reducesTo_S256x196x768_S256_d1_2.drop (ix3 b t d) = ix1 b :=
  funext fun a => Fin.ext (by
    match a with
    | ⟨0, _⟩ => exact Shape.ReducesTo.drop_apply_val_of_eq reducesTo_S256x196x768_S256_d1_2 (ix3 b t d) 0 0)

/-- The indices that drop to b are exactly the (b, t, d): the sum over them is the double sum over t and d. -/
theorem sum_drop12 (y : S256x196x768.Idx → EReal) (b : Fin 256) :
    ∑ i ∈ Finset.univ.filter (fun i : S256x196x768.Idx => reducesTo_S256x196x768_S256_d1_2.drop i = ix1 b), y i
      = ∑ t : Fin 196, ∑ d : Fin 768, y (ix3 b t d) := by
  rw [← Fintype.sum_prod_type' (fun (t : Fin 196) (d : Fin 768) => y (ix3 b t d))]
  have back : ∀ i : S256x196x768.Idx, reducesTo_S256x196x768_S256_d1_2.drop i = ix1 b →
      ix3 b (⟨(i 1).val, (i 1).isLt⟩ : Fin 196) (⟨(i 2).val, (i 2).isLt⟩ : Fin 768) = i := fun i hi =>
    funext fun a => Fin.ext (by
      match a with
      | ⟨0, _⟩ =>
        have h0 := congrArg (fun j : S256.Idx => (j 0).val) hi
        have h1 := Shape.ReducesTo.drop_apply_val_of_eq reducesTo_S256x196x768_S256_d1_2 i 0 0
        exact (h0.symm.trans h1)
      | ⟨1, _⟩ => rfl
      | ⟨2, _⟩ => rfl)
  refine Finset.sum_bij' (fun i _ => ((⟨(i 1).val, (i 1).isLt⟩ : Fin 196), (⟨(i 2).val, (i 2).isLt⟩ : Fin 768)))
    (fun p _ => ix3 b p.1 p.2) (fun _ _ => Finset.mem_univ _)
    (fun p _ => Finset.mem_filter.mpr ⟨Finset.mem_univ _, drop12_ix3 b p.1 p.2⟩)
    (fun i hi => back i (Finset.mem_filter.mp hi).2) (fun p _ => rfl)
    (fun i hi => congrArg y (back i (Finset.mem_filter.mp hi).2).symm)

/-- The second term: the sum over the two trailing axes at once. -/
theorem v17_eq (x0 : X0) (x1 : X1) (x2 : X2) (b : Fin 256) :
    val_main_v17 (F := Ideal) x0 x1 x2 (ix1 b) = term2 (wgt (sig x2) (dlt x1 b)) (feat x0 b) := by
  unfold val_main_v17
  simp only [Host.reduceAdd, Ideal.hostReduceAdd_def]
  unfold Ideal.hostReduceAdd
  rw [sum_drop12, val_main_cst_4_apply, Ideal.ofBits_def, Ideal.ofBits_zero_f32, zero_add]
  unfold term2
  exact Finset.sum_congr rfl fun t _ => Finset.sum_congr rfl fun d _ => v16_eq x0 x1 x2 b t d

/-! ## One element's loss, and the mean -/

/-- The element's loss: first term − 2 · second term + third term. -/
theorem v24_eq (x0 : X0) (x1 : X1) (x2 : X2) (b : Fin 256) :
    val_main_v24 (F := Ideal) x0 x1 x2 (ix1 b) = lossOf (wgt (sig x2) (dlt x1 b)) (feat x0 b) := by
  rw [val_main_v24_apply, val_main_v23_apply, val_main_v22_apply, val_main_v21_apply, val_main_cst_7_apply,
    v14_eq, v17_eq, v20_eq]
  rfl

/-- A rank-1 index is its one coordinate … -/
def idxEquiv1 : S256.Idx ≃ Fin 256 where
  toFun j := ⟨(j 0).val, (j 0).isLt⟩
  invFun b := ix1 b
  left_inv j := funext fun a => Fin.ext (by match a with | ⟨0, _⟩ => rfl)
  right_inv _ := rfl

/-- … so the sum over the rank-1 index set is the sum over the coordinate. -/
theorem sum_idx1 (f : S256.Idx → EReal) : ∑ j : S256.Idx, f j = ∑ b : Fin 256, f (ix1 b) :=
  (Equiv.sum_comp idxEquiv1.symm f).symm

/-- The reference's value is the mean of the 256 losses divided by 196². -/
theorem ref_eq (x0 : (⟨Cert.ReferenceIdeal.S256x196x768, .f32⟩ : BufTy).Contents (Elt Ideal))
    (x1 : (⟨Cert.ReferenceIdeal.S256x196x196x4, .f32⟩ : BufTy).Contents (Elt Ideal))
    (x2 : (⟨Cert.ReferenceIdeal.S4, .f32⟩ : BufTy).Contents (Elt Ideal)) :
    Cert.ReferenceIdeal.Read.val_main_v27 (F := Ideal) x0 x1 x2
      = fun _ => Cert.PatchLoss.meanLoss (fun b : Fin 256 => Cert.PatchLoss.lossOf
          (Cert.PatchLoss.wgt (fun k : Fin 4 => x2 (ValueIdx.ix1 k)) (fun (t u : Fin 196) (k : Fin 4) => x1 (ValueIdx.ix4 b t u k)))
          (fun (t : Fin 196) (d : Fin 768) => x0 (ValueIdx.ix3 b t d))) := by
  funext i
  rw [val_main_v27_apply, val_main_v26_apply, val_main_v25_apply, val_main_cst_8_apply, val_main_cst_9_apply,
    val_main_cst_10_apply, Ideal.ofBits_def, Ideal.ofBits_def, Ideal.ofBits_def, Ideal.ofBits_zero_f32, zero_add, sum_idx1]
  unfold meanLoss
  rw [Ideal.hostDivf_def, Ideal.hostDivf_def]
  exact congrArg (fun s => Ideal.div (Ideal.div s _) _) (Finset.sum_congr rfl fun b _ => v24_eq x0 x1 x2 b)

end Cert.PatchLoss.Ref

end
-- ==== Proof.PreDecode.lean ====
/-
  Under the precondition every bandwidth σ_k is a nonzero real.

  The precondition is a conjunction of four "for all entries" statements, each a reduction by "and" of a
  boolean array down to one boolean, and it says the conjunction is true.  Two of the four speak of the
  bandwidths σ : 4:
      for all k, |σ_k| < +∞            (the absolute value is max σ_k (−σ_k) on the extended reals)
      for all k, σ_k ≠ 0.
  A conjunction that is true has every conjunct true, and a reduction by "and" over all axes that is true
  had a true entry at every index.  So at each k both element facts hold.  An extended real whose absolute
  value is below +∞ is neither −∞ nor +∞, hence a real r; and r ≠ 0 because σ_k ≠ 0.
  The other two conjuncts (the patch features and the pairwise deltas being finite) are not needed here.
-/
import proofs.«132425_j43052752175786_2_alg».proof.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.PatchLoss.Pre

open Idealize.ShloMosaic

/-- The scalar shape has exactly one index: there is no axis to disagree on. -/
instance : Subsingleton Cert.Pre_finite_inputs.S_.Idx := ⟨fun a b => funext fun d => d.elim0⟩

/-- The word 0x7F800000 denotes +∞. -/
theorem ofBits_inf : Ideal.ofBits .f32 0x7F800000#32 = (⊤ : EReal) := by simp [Ideal.ofBits, Ideal.ieee]

/-- A one-bit word made from a boolean is 1 exactly when the boolean is true. -/
theorem ofBool_eq_one (b : Bool) : BitVec.ofBool b = 1#1 ↔ b = true := by cases b <;> decide

/-- A scalar constant broadcast to any shape reads, at every index, the extended real its word denotes:
    the scalar has no axis, so no coordinate of the index is consulted. -/
theorem bcast_const {t : Shape} (b : BitVec 32)
    (hb : Cert.Pre_finite_inputs.S_.BroadcastsInDim t (![] : Fin 0 → Fin t.rank)) (j : t.Idx) :
    broadcastInDim t ![] hb (constant (F := Ideal) Cert.Pre_finite_inputs.S_ .f32 b) j = Ideal.ofBits .f32 b := by
  rw [broadcastInDim_apply ![] hb (constant (F := Ideal) Cert.Pre_finite_inputs.S_ .f32 b) j ValueIdx.ix0 (fun a => a.elim0)]
  rfl

/-- An extended real x with max x (−x) < +∞ and x ≠ 0 is a nonzero real: x = −∞ gives max = +∞, x = +∞ gives
    max = +∞, so x is a real r, and r = 0 would make x = 0. -/
theorem real_ne_zero (x : EReal) (hfin : Ideal.cmp .olt (max x (-x)) ⊤ = 1#1) (hne : Ideal.cmp .une x 0 = 1#1) :
    ∃ r : ℝ, r ≠ 0 ∧ x = (r : EReal) := by
  unfold Ideal.cmp at hfin hne
  dsimp only at hfin hne
  rw [ofBool_eq_one, decide_eq_true_eq] at hfin hne
  induction x using EReal.rec with
  | bot => simp at hfin
  | top => simp at hfin
  | coe r => exact ⟨r, fun h0 => hne (by rw [h0]; rfl), rfl⟩

/-- THE PRECONDITION DECODED at bandwidth k: σ_k is a real and is not zero. -/
theorem sigma_real_ne_zero [Cert.Pre_finite_inputs.Facts] (a0 : FVec Ideal Cert.Pre_finite_inputs.S256x196x768 .f32) (a1 : FVec Ideal Cert.Pre_finite_inputs.S256x196x196x4 .f32) (a2 : FVec Ideal Cert.Pre_finite_inputs.S4 .f32)
    (h : Cert.Pre_finite_inputs.fn (F := Ideal) a0 a1 a2 = fun _ => 1#1) :
    ∀ k : Fin 4, ∃ r : ℝ, r ≠ 0 ∧ a2 (ValueIdx.ix1 k) = (r : EReal) := by
  intro k
  -- the one boolean the precondition computes, read at the scalar shape's one index
  have e := congrFun h ValueIdx.ix0
  dsimp only [Cert.Pre_finite_inputs.fn, Cert.Pre_finite_inputs.fn_part1, andi] at e
  -- ((z finite ∧ deltas finite) ∧ σ finite) ∧ σ nonzero: keep the last two
  rw [IntOp.andi_eq_one, IntOp.andi_eq_one] at e
  obtain ⟨⟨-, hfin⟩, hne⟩ := e
  -- each "for all" at index k
  have ffin := Host.reduce_andi_all _ _ _ _ _ hfin (ValueIdx.ix1 k)
  have fne := Host.reduce_andi_all _ _ _ _ _ hne (ValueIdx.ix1 k)
  -- the two element comparisons, against +∞ and against 0
  rw [ValueIdx.cmpf_apply, bcast_const, Ideal.cmpf_def, ofBits_inf] at ffin
  rw [ValueIdx.cmpf_apply, bcast_const, Ideal.cmpf_def, Ideal.ofBits_zero_f32] at fne
  exact real_ne_zero _ ffin fne

end Cert.PatchLoss.Pre

end
-- ==== Proof.lean ====
/-
  A patch-consistency loss: for 256 batch elements with 196 patches of 768 features and pairwise patch deltas
  g : 196 × 196 × 4, the Gaussian weight of a pair is w t u = exp (−Σ_k g t u k² / (2 σ_k²)), an element's loss is
      Σ_t |z_t|² Σ_u w t u − 2 Σ_t Σ_d (Σ_u w t u · z u d) z t d + Σ_u |z_u|² Σ_t w t u,
  and the result is the mean of the 256 losses divided by 196².

  The kernel program transposes the deltas, computes four elements per grid step (multiplying by the reciprocals
  1 / (2 σ_k²), which is the quotient wherever σ_k is a nonzero real — the precondition says it is), writes each
  step's four losses into an 8 × 128 tile, and finally sums the 512 × 128 array and divides by 128 · 256 · 196².  The
  reference computes the same sums on whole arrays.  On the extended reals the two results are one function of the
  arguments: sums may be regrouped freely, and the final scaling agrees for finite and infinite totals alike.
-/
import proofs.«132425_j43052752175786_2_alg».proof.Defs
import proofs.«132425_j43052752175786_2_alg».proof.Proof.Gen.Kernel
import proofs.«132425_j43052752175786_2_alg».proof.Proof.Gen.Kernel.Skeleton
import proofs.«132425_j43052752175786_2_alg».proof.Proof.Gen.Kernel.Launch
import proofs.«132425_j43052752175786_2_alg».proof.Proof.Gen.Kernel.Points
import proofs.«132425_j43052752175786_2_alg».proof.Proof.Gen.Kernel.Frame
import proofs.«132425_j43052752175786_2_alg».proof.Proof.Gen.KernelIdeal
import proofs.«132425_j43052752175786_2_alg».proof.Proof.Gen.KernelIdeal.Skeleton
import proofs.«132425_j43052752175786_2_alg».proof.Proof.Gen.KernelIdeal.Launch
import proofs.«132425_j43052752175786_2_alg».proof.Proof.Gen.KernelIdeal.Points
import proofs.«132425_j43052752175786_2_alg».proof.Proof.Gen.KernelIdeal.Frame
import proofs.«132425_j43052752175786_2_alg».proof.Proof.Gen.ReferenceIdeal
import proofs.«132425_j43052752175786_2_alg».proof.Proof.Gen.ReferenceIdeal.Run
import proofs.«132425_j43052752175786_2_alg».proof.Proof.Gen.ReferenceIdeal.Read
import proofs.«132425_j43052752175786_2_alg».proof.Proof.Gen.Pre_finite_inputs
import proofs.«132425_j43052752175786_2_alg».proof.Proof.KernelRun
import proofs.«132425_j43052752175786_2_alg».proof.Proof.RefValue
import proofs.«132425_j43052752175786_2_alg».proof.Proof.PreDecode
import Idealize.ShloMosaic.Adequacy
import Idealize.ShloMosaic.Init

noncomputable section

namespace Cert.Proof

open Idealize.ShloMosaic Idealize.SL.Sem Cert.PatchLoss

/-- Both idealized programs end at the mean of the losses divided by 196²: the kernel program by its run read
    through the tiles, the reference by its run read operation by operation; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hσ : ∀ (c : Dev Cert.KernelIdeal.nD) (k : Fin 4), ∃ r : ℝ, r ≠ 0 ∧ Arr.sOf m c k = (r : EReal) :=
    fun c k => Pre.sigma_real_ne_zero _ _ _ (hpre c) k
  refine ⟨fun c _ => meanLoss (Arr.losses m c), Arr.run m ρ hσ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Ref.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
